-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100001x128 : Shape := ⟨2, ![100001, 128]⟩
abbrev S_ : Shape := ⟨0, ![]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S100001x128 .f32) : IVec S_ 1 :=
  let main_v0 : FVec F S100001x128 .f32 := Host.absf main_arg1
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 99999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S100001x128 : Shape := ⟨2, ![100001, 128]⟩
abbrev S16384x128 : Shape := ⟨2, ![16384, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S100001x128, .f32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100001x128_S100001x128_0_0 : ∀ a, (![0, 0] : Fin 2 → Nat) a + S100001x128.size a ≤ S100001x128.size a
  gathers_S100001x128_S512x128 : S100001x128.Gathers 0 S512x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S100001x128 : Shape := ⟨2, ![100001, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100001x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100001x128_S16384x1_S16384x128_1_0_n_n_0_1_1128_wf : GatherDims.WF S100001x128 S16384x1 S16384x128 [1] [0] [] [0] [] 1 ![1, 128]

variable [Facts₀]

def gather_S100001x128_S16384x1_S16384x128_1_0_n_n_0_1_1128 : GatherDims S100001x128 S16384x1 S16384x128 where
  offsetDims := [1]
  collapsedSliceDims := [0]
  operandBatchingDims := []
  startIndicesBatchingDims := []
  startIndexMap := [0]
  indexVectorDim := 1
  sliceSizes := ![1, 128]
  wf := gather_S100001x128_S16384x1_S16384x128_1_0_n_n_0_1_1128_wf

class Facts : Prop extends Facts₀ where

variable [Facts]
-- ==== Proof.PreRange.lean ====
/-
  The input range, decoded. The stated precondition is a pure function of the two inputs that returns a single bit;
  it is the conjunction of two "for all entries" tests. The second one says that every label, read as a signed
  32-bit integer, lies between 0 and 99999. From the bit being 1 we recover, entry by entry, that the label read
  as a natural number is below 100000. Nothing here depends on the first test (every table entry is finite), nor on
  how floating-point values are represented.
-/
import proofs.«204377_g71743133712511_cont_9to1c4b_469_16_alg».proof.Pre_input_domain
import Idealize.ShloMosaic.Lib.ReduceAll
import Idealize.ShloMosaic.Lib.ValueIdx

namespace Cert.Proof.PreRange

open Idealize.ShloMosaic Idealize.ShloMosaic.ValueIdx

/-- The rank-0 shape has exactly one index. -/
instance subsingleton_scalarIdx : Subsingleton Cert.Pre_input_domain.S_.Idx :=
  ⟨fun _ _ => funext fun d => d.elim0⟩

/-- A 32-bit word that is at least 0 and at most 99999 as a signed integer is below 100000 as a natural number:
    a nonnegative signed reading is the unsigned one. -/
theorem toNat_lt_of_signed_range (w : BitVec 32) (h0 : (0#32 : BitVec 32).toInt ≤ w.toInt)
    (h1 : w.toInt ≤ (99999#32 : BitVec 32).toInt) : w.toNat < 100000 := by
  have e0 : (0#32 : BitVec 32).toInt = 0 := by decide
  have e1 : (99999#32 : BitVec 32).toInt = 99999 := by decide
  rw [e0] at h0
  rw [e1] at h1
  have hc := BitVec.toInt_eq_toNat_cond w
  have hlt := w.isLt
  split at hc <;> omega

/-- Under the stated precondition every label is below 100000. -/
theorem labels_lt {F : FTy → Type} [FloatOps F] [Cert.Pre_input_domain.Facts]
    (l : IVec Cert.Pre_input_domain.S16384 32) (t : FVec F Cert.Pre_input_domain.S100001x128 .f32)
    (h : Cert.Pre_input_domain.fn (F := F) l t = fun _ => 1#1) : ∀ j, (l j).toNat < 100000 := by
  intro j
  have h0 := congrFun h ValueIdx.ix0
  dsimp only [Cert.Pre_input_domain.fn] at h0
  have h1 := (IntOp.andi_eq_one.1 h0).2
  have h2 := Host.reduce_andi_all _ _ _ _ _ h1 j
  obtain ⟨hge, hle⟩ := IntOp.andi_eq_one.1 h2
  exact toNat_lt_of_signed_range (l j) (IntOp.cmpi_sge.1 hge) (IntOp.cmpi_sle.1 hle)

end Cert.Proof.PreRange
-- ==== Proof.RefRun.lean ====
/-
  The reference program as a straight line, and what it leaves in memory.

  The reference is a table lookup written through two helper functions; run on the machine, the helpers' bodies
  are executed in place, so the whole program is one straight line of 23 array operations, each reading earlier
  results and writing one new array. This module lists those operations in order, shows the program is exactly
  that line, and concludes: every execution ends, and the result array holds the value of the pure expression
  `refOut labels table` obtained by composing the 23 operations, while the two inputs are left as they were.

  `refOut` in words: shift negative labels up by the table height (100001), test that the shifted label lies in
  [0, 100000], take the table row at the shifted label (the row position clamped into the table), and keep that
  row where the test passed, a fixed filler value where it failed.
-/
import proofs.«204377_g71743133712511_cont_9to1c4b_469_16_alg».proof.ReferenceIdeal
import Idealize.ShloMosaic.Lib.StableHlo.Run

noncomputable section

namespace Cert.Proof.RefSide

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The program's 23 operations, in order; the inner helper's single operation (the choice between the shifted and
    the unshifted label) stands at the place of its call. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100001#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 100000#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S100001x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- The program is that straight line: unfold the two helpers at their calls and reassociate the sequencing. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The shifted label: a label that reads negative has the table height added, any other is kept. -/
def shifted (labels : IVec S16384 32) : IVec S16384 32 :=
  select (cmpi .slt labels (broadcastInDim S16384 ![] bcast_S_S16384 (constantI S_ 32 0#32)))
    (addi labels (broadcastInDim S16384 ![] bcast_S_S16384 (constantI S_ 32 100001#32))) labels

/-- The shifted labels as a one-column matrix: the row positions the lookup reads. -/
def positions (labels : IVec S16384 32) : IVec S16384x1 32 :=
  broadcastInDim S16384x1 ![0] bcast_S16384_S16384x1_0 (shifted labels)

/-- Per label, whether its position lies in [0, 100000]: both comparisons, combined over the single column. -/
def inRange (labels : IVec S16384 32) : IVec S16384 1 :=
  Host.reduce IntOp.andi
    (andi (cmpi .sge (positions labels) (broadcastInDim S16384x1 ![] bcast_S_S16384x1 (constantI S_ 32 0#32)))
      (cmpi .sle (positions labels)
        (broadcastInDim S16384x1 ![0, 1] bcast_S1x1_S16384x1_0_1
          (broadcastInDim S1x1 ![1] bcast_S1_S1x1_1 (constantI S1 32 100000#32)))))
    (constantI S_ 1 1#1) reducesTo_S16384x1_S16384_d1 h_S_

/-- The whole program as one expression of its two inputs. -/
def refOut (labels : IVec S16384 32) (table : FVec F S100001x128 .f32) : FVec F S16384x128 .f32 :=
  select (broadcastInDim S16384x128 ![0] bcast_S16384_S16384x128_0 (inRange labels))
    (Host.gather gather_S100001x128_S16384x1_S16384x128_1_0_n_n_0_1_1128 table (positions labels))
    (broadcastInDim S16384x128 ![] bcast_S_S16384x128 (constant S_ .f32 0x7FC00000#32))

attribute [local irreducible] Host.reduce Host.gather in
set_option maxRecDepth 4096 in
/-- After the line has run, the result array holds `refOut` of the two inputs. -/
theorem out_eq (V : Valuation τ sig (Elt F)) :
    after ops V (main_v0 : DevRef τ sig) = refOut (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- Every execution of the reference ends; the result array then holds `refOut` of the inputs as they were at the
    start, and the inputs are unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.Proof.RefSide

end
-- ==== Proof.Spec.lean ====
/-
  What both programs compute, stated once: an embedding lookup. The result has one row per label, and row `e` is the
  table's row named by label `e`, column by column. A label is a 32-bit word read as a natural number; the row it
  names is that number clipped to the table's last row (100000), a clip no label in the stated range 0 … 99999
  ever meets. Stated over literal shapes and for any element type, so that it reads the same at the word-level
  and at the exact instance.
-/
import Idealize.ShloMosaic.Lib.ValueIdx

namespace Cert.Spec

open Idealize.ShloMosaic Idealize.ShloMosaic.ValueIdx

/-- The labels, the table and the result, as shapes. -/
abbrev SLab : Shape := ⟨1, ![16384]⟩
abbrev STab : Shape := ⟨2, ![100001, 128]⟩
abbrev SOut : Shape := ⟨2, ![16384, 128]⟩

/-- The table row a label names: its value as a natural number, clipped to the last row. -/
def rowOf (w : BitVec 32) : Fin 100001 := ⟨min w.toNat 100000, by omega⟩

/-- A label below the table's height names its own row. -/
theorem rowOf_val {w : BitVec 32} (h : w.toNat < 100001) : (rowOf w).val = w.toNat := by
  show min w.toNat 100000 = w.toNat
  omega

/-- The lookup: entry `(e, k)` of the result is entry `(rowOf (labels e), k)` of the table. -/
def lookup {α : Type} (labels : SLab.Idx → BitVec 32) (table : STab.Idx → α) : SOut.Idx → α :=
  fun i => table (ix2 (rowOf (labels (ix1 (i 0 : Fin 16384)))) (i 1 : Fin 128))

theorem lookup_apply {α : Type} (labels : SLab.Idx → BitVec 32) (table : STab.Idx → α) (e : Fin 16384) (k : Fin 128) :
    lookup labels table (ix2 e k) = table (ix2 (rowOf (labels (ix1 e))) k) := rfl

end Cert.Spec
-- ==== Proof.LibRowGather.lean ====
/-
  Taking rows of a matrix at integer row positions (x[idx] along axis 0), read at an entry.

  The operand is an [N, C] matrix and the positions an [M, 1] integer column; the result is the [M, C] matrix whose
  row e is the operand's row at position idx(e), read as a signed integer and clamped into [0, N − 1]. So result
  entry (e, c) is the operand's entry (row(e), c): the row depends on the edge only and the column is kept. Taking
  rows therefore commutes with anything done to each row separately, a product with a matrix on the right included.
-/
import Idealize.ShloMosaic.PureOps.ShapeOps
import Idealize.ShloMosaic.Lib.ValueIdx

noncomputable section

namespace Cert.LibRowGather

open Idealize.ShloMosaic Idealize.ShloMosaic.ValueIdx

/-- The dimension numbers of a row gather: the result's axis 1 is the offset axis, the operand's axis 0 is collapsed
    and is the one the index names, the index vector is the positions' axis 1, a slice is one whole row. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N M C w : Nat} (wf : GatherDims.WF ⟨2, ![N, C]⟩ ⟨2, ![M, 1]⟩ ⟨2, ![M, C]⟩ [1] [0] [] [0] [] 1 ![1, C])

/-- The row edge e reads: its position, signed, clamped into [0, N − 1]. -/
def row (hN : 0 < N) (idx : IVec ⟨2, ![M, 1]⟩ w) (e : Fin M) : Fin N :=
  ⟨min (idx (ix2 e 0)).toInt.toNat (N - 1), by omega⟩

/-- On the row axis result entry (e, c) reads the clamped position of e. -/
theorem operandIdx_row (hN : 0 < N) (idx : IVec ⟨2, ![M, 1]⟩ w) (e : Fin M) (c : Fin C) :
    ((rowsDims N M C wf).operandIdx (ix2 e c) idx 0).val = (row hN idx e).val := by
  show (rowsDims N M C wf).start (ix2 e c) idx 0 + (rowsDims N M C wf).batchCoord (ix2 e c) 0
    + (rowsDims N M C wf).offCoord (ix2 e c) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N M C wf).startIndexMap from List.mem_singleton.mpr rfl)]
  have hsi : (rowsDims N M C wf).siIdx (ix2 e c) ⟨List.idxOf (0 : Fin 2) (rowsDims N M C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis it reads its own column. -/
theorem operandIdx_col (idx : IVec ⟨2, ![M, 1]⟩ w) (e : Fin M) (c : Fin C) :
    ((rowsDims N M C wf).operandIdx (ix2 e c) idx 1).val = c.val := by
  show (rowsDims N M C wf).start (ix2 e c) idx 1 + (rowsDims N M C wf).batchCoord (ix2 e c) 1
    + (rowsDims N M C wf).offCoord (ix2 e c) 1 = _
  rw [GatherDims.batchCoord_eq_zero _ _ _ List.not_mem_nil, Nat.add_zero]
  have hs : (rowsDims N M C wf).start (ix2 e c) idx 1 = 0 := by
    unfold GatherDims.start
    rw [dif_neg (show ¬ (1 : Fin 2) ∈ (rowsDims N M C wf).startIndexMap from
      fun h => absurd (List.mem_singleton.mp h) (show (1 : Fin 2) ≠ 0 by decide))]
  rw [hs, Nat.zero_add]
  unfold GatherDims.offCoord
  rw [dif_pos (show (1 : Fin 2) ∈ (rowsDims N M C wf).sKept from
    (GatherDims.mem_sKept _ _).2 ⟨fun h => absurd (List.mem_singleton.mp h) (show (1 : Fin 2) ≠ 0 by decide), List.not_mem_nil⟩)]
  rfl

/-- The operand index that result entry (e, c) reads is (row e, c). -/
theorem operandIdx_rows (hN : 0 < N) (idx : IVec ⟨2, ![M, 1]⟩ w) (e : Fin M) (c : Fin C) :
    (rowsDims N M C wf).operandIdx (ix2 e c) idx = ix2 (row hN idx e) c := by
  funext a
  refine Fin.ext ?_
  match a with
  | ⟨0, _⟩ => exact operandIdx_row wf hN idx e c
  | ⟨1, _⟩ => exact operandIdx_col wf idx e c

/-- THE ROW GATHER AT (e, c): the operand's entry (row e, c). -/
theorem gather_rows_apply {α : Type} (hN : 0 < N) (x : (⟨2, ![N, C]⟩ : Shape).Idx → α) (idx : IVec ⟨2, ![M, 1]⟩ w)
    (e : Fin M) (c : Fin C) :
    Host.gather (rowsDims N M C wf) x idx (ix2 e c) = x (ix2 (row hN idx e) c) := by
  unfold Host.gather
  rw [operandIdx_rows wf hN]

end Cert.LibRowGather

end
-- ==== Proof.RefRead.lean ====
/-
  What the reference computes, entry by entry, for labels in the stated range.

  `refOut labels table` (the reference program as one expression) guards against labels outside the table: it
  shifts negative labels up by the table height, tests the shifted label against [0, 100000], clamps the row
  position into the table, and fills rows that failed the test with a fixed value. When every label, read as a
  natural number, is below 100000, none of that does anything: no label reads negative, so none is shifted; every
  test passes; the clamp leaves the position alone; the filler is never chosen. What is left is the plain lookup:
  entry (e, k) of the result is entry (label e, k) of the table. This module proves that, and with it the
  reference's run ending in the lookup of the inputs.
-/
import proofs.«204377_g71743133712511_cont_9to1c4b_469_16_alg».proof.Proof.RefRun
import proofs.«204377_g71743133712511_cont_9to1c4b_469_16_alg».proof.Proof.Spec
import proofs.«204377_g71743133712511_cont_9to1c4b_469_16_alg».proof.Proof.LibRowGather
import Idealize.ShloMosaic.Lib.Affine
import Idealize.ShloMosaic.PureOps.Reduce
import Idealize.ShloMosaic.PureOps.Ideal

noncomputable section

namespace Cert.Proof.RefSide

open Cert.ReferenceIdeal Cert.ReferenceIdeal.Facts₀ Idealize.ShloMosaic Idealize.ShloMosaic.ValueIdx Idealize.SL.Sem

/-! ## Words and one-bit folds -/

/-- A 32-bit word below 100000 reads the same signed and unsigned. -/
theorem toInt_eq_toNat_of_small {w : BitVec 32} (h : w.toNat < 100000) : w.toInt = (w.toNat : Int) :=
  BitVec.toInt_eq_toNat_of_lt (by omega)

/-- A left fold by "and" that starts at 1 and meets only 1s ends at 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, h => by
    rw [List.foldl_cons]
    refine foldl_andi_ones f l _ ?_ (fun n hn => h n (List.mem_cons_of_mem _ hn))
    rw [hi, h a List.mem_cons_self]
    decide

/-- A reduction by "and" of an array of all ones, from the initial value 1, is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl]
  exact foldl_andi_ones x _ _ hi (fun n _ => hx n)

/-! ## The guards do nothing on labels in range -/

section InRange

variable [Cert.ReferenceIdeal.Facts]

/-- The program's row-lookup record is the general one at this table's dimensions. -/
theorem gatherDims_eq : gather_S100001x128_S16384x1_S16384x128_1_0_n_n_0_1_1128
    = Cert.LibRowGather.rowsDims 100001 16384 128 gather_S100001x128_S16384x1_S16384x128_1_0_n_n_0_1_1128_wf := rfl

variable (labels : IVec S16384 32) (hl : ∀ j, (labels j).toNat < 100000)
include hl

/-- No label reads negative, so none is shifted. -/
theorem shifted_eq : shifted labels = labels := by
  funext j
  have hnot : ¬ IntOp.cmpi .slt (labels j) (0#32) = 1#1 := by
    rw [IntOp.cmpi_slt, toInt_eq_toNat_of_small (hl j), show (0#32 : BitVec 32).toInt = 0 from by decide]
    omega
  show Scalar.select (IntOp.cmpi .slt (labels j) (0#32)) _ (labels j) = labels j
  exact if_neg hnot

/-- The row position of entry `i` of the one-column matrix is the label of its row. -/
theorem positions_apply (i : S16384x1.Idx) : positions labels i = labels (ix1 (i 0 : Fin 16384)) := by
  unfold positions
  rw [shifted_eq labels hl]
  unfold broadcastInDim
  refine congrArg labels (funext fun a => ?_)
  match a with
  | ⟨0, _⟩ => rfl

/-- Every label passes the range test. -/
theorem inRange_eq_one (j : S16384.Idx) : inRange labels j = 1#1 := by
  unfold inRange
  refine reduce_andi_ones _ _ _ _ (fun i => ?_) rfl j
  have hp := positions_apply labels hl i
  have hi := toInt_eq_toNat_of_small (hl (ix1 (i 0 : Fin 16384)))
  have hlt := hl (ix1 (i 0 : Fin 16384))
  refine IntOp.andi_eq_one.2 ⟨IntOp.cmpi_sge.2 ?_, IntOp.cmpi_sle.2 ?_⟩
  · show (0#32 : BitVec 32).toInt ≤ (positions labels i).toInt
    rw [hp, hi, show (0#32 : BitVec 32).toInt = 0 from by decide]
    omega
  · show (positions labels i).toInt ≤ (100000#32 : BitVec 32).toInt
    rw [hp, hi, show (100000#32 : BitVec 32).toInt = 100000 from by decide]
    omega

/-- The row the lookup reads for label `e`: the clamp is idle, it is the label's own row. -/
theorem row_eq (e : Fin 16384) :
    Cert.LibRowGather.row (N := 100001) (by decide) (positions labels) e = Cert.Spec.rowOf (labels (ix1 e)) := by
  have hp : positions labels (ix2 e (0 : Fin 1)) = labels (ix1 e) := positions_apply labels hl (ix2 e (0 : Fin 1))
  refine Fin.ext ?_
  show min ((positions labels (ix2 e (0 : Fin 1))).toInt.toNat) (100001 - 1) = min (labels (ix1 e)).toNat 100000
  rw [hp, toInt_eq_toNat_of_small (hl (ix1 e)), Int.toNat_natCast]

variable {F : FTy → Type} [FloatOps F]

/-- Entry (e, k) of the reference's result is entry (label e, k) of the table. -/
theorem refOut_apply (table : FVec F S100001x128 .f32) (e : Fin 16384) (k : Fin 128) :
    refOut labels table (ix2 e k) = table (ix2 (Cert.Spec.rowOf (labels (ix1 e))) k) := by
  have hm : broadcastInDim S16384x128 ![0] bcast_S16384_S16384x128_0 (inRange labels) (ix2 e k) = 1#1 :=
    inRange_eq_one labels hl _
  unfold refOut
  rw [select_apply, hm, select_one, gatherDims_eq,
    Cert.LibRowGather.gather_rows_apply gather_S100001x128_S16384x1_S16384x128_1_0_n_n_0_1_1128_wf (by decide) table
      (positions labels) e k,
    row_eq labels hl e]

/-- The reference's result is the lookup. -/
theorem refOut_eq_lookup (table : FVec F S100001x128 .f32) : refOut labels table = Cert.Spec.lookup labels table := by
  funext i
  obtain ⟨e, k, rfl⟩ : ∃ (e : Fin 16384) (k : Fin 128), i = ix2 e k := ⟨i 0, i 1, eq_ix2 i⟩
  rw [refOut_apply labels hl table e k, Cert.Spec.lookup_apply]

end InRange

/-! ## The run -/

/-- With every label below 100000, every execution of the reference ends with the result array holding the lookup
    of the inputs as they were at the start, and the inputs unchanged. -/
theorem run [Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg)
    (hl : ∀ (c : Dev Cert.ReferenceIdeal.nD) j, (m' ((c.tc : Thread Cert.ReferenceIdeal.nD Cert.ReferenceIdeal.τ).loc Cert.ReferenceIdeal.main_arg0) j).toNat < 100000) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v0)
            = Cert.Spec.lookup (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (refOut_eq_lookup _ (hl c) _), (h c).2⟩)
    (run_term (F := Ideal) m' g')

end Cert.Proof.RefSide

end
-- ==== Proof.IdealSetup.lean ====
/-
  The kernel side, first part: what the proofs about the lookup kernel share.

  The kernel runs on thirty-two vector subcores at once (two SparseCores of sixteen). Subcore `i` of SparseCore `c`
  is worker `w = 2 i + c`; it copies labels `512 w … 512 w + 511` into its own memory, gathers the table rows those
  labels name, and copies the 512 gathered rows to rows `512 w … 512 w + 511` of the result. The workers' row blocks
  are the thirty-two equal parts of the result along its first axis: pairwise disjoint, covering it.

  Here: the program as the launch theorem reads it; the resource algebra (the launch handshakes' rounds beside the
  transfers' counters: the kernel only starts local copies and waits for them, so it needs no schedule of its own);
  the specification at this program's arrays; and what the launch hands each worker and takes back — a read share of
  the labels and of the table, and its own block of the result, which comes back holding the looked-up rows.
-/
import proofs.«204377_g71743133712511_cont_9to1c4b_469_16_alg».proof.Defs
import proofs.«204377_g71743133712511_cont_9to1c4b_469_16_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«204377_g71743133712511_cont_9to1c4b_469_16_alg».proof.Proof.Gen.KernelIdeal
import proofs.«204377_g71743133712511_cont_9to1c4b_469_16_alg».proof.Proof.Gen.KernelIdeal.Skeleton

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the specification -/

variable (m : (ℓ : Loc nD τ sig) → Buf (Elt F) ℓ) (ρ : Dev nD → PrngReg)

/-- The labels, the table and the result, as locations of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- What the result holds at the end: row `e` is the table's row that label `e` names. -/
def G (d : Dev nD) : Buf (Elt F) (oLoc d) := Cert.Spec.lookup (m (iLoc d)) (m (xLoc d))

/-! ## The workers' blocks of the result -/

abbrev oV : Memref sig .scVector .hbm S16384x128 .f32 := Memref.whole main_v0_scv

theorem hdiv : 32 ∣ S16384x128.size 0 := ⟨512, rfl⟩
/-- Block `w` of the result: rows `512 w … 512 w + 511`, the `w`-th of thirty-two equal parts along axis 0. -/
abbrev blk (w : Fin 32) : Rect S16384x128 := Rect.part (s := S16384x128) (a₀ := 0) hdiv w
abbrev blkSet (w : Fin 32) : Finset S16384x128.Idx := ((oV : Memref sig .scVector .hbm S16384x128 .f32).view.slice (blk w)).set

/-- The worker number of subcore `i` of SparseCore `c`. -/
def wid (c i : ℕ) : Fin 32 := ⟨(2 * i + c) % 32, Nat.mod_lt _ (by decide)⟩

theorem wid_val {c i : ℕ} (hc : c < 2) (hi : i < 16) : (wid c i).val = 2 * i + c := Nat.mod_eq_of_lt (by omega)

/-! ## What the launch hands a worker, and takes back -/

/-- Worker `w`'s read share of an array. -/
abbrev tok (w : Fin 32) : PosShare TreeShare := Transfers.shareTok fullShare 32 w

/-- To worker `w`: its shares of the labels and the table, and block `w` of the result as the launch found it. -/
def tileGo (d : Dev nD) (w : Fin 32) : sProp 𝕄 :=
  iprop((iLoc d ↦{tok w} m (iLoc d)) ∗ (xLoc d ↦{tok w} m (xLoc d)) ∗ oLoc d ↦[blkSet w]{fullShare} m (oLoc d))
/-- Back from worker `w`: the shares, and block `w` holding the looked-up rows. -/
def tileTd (d : Dev nD) (w : Fin 32) : sProp 𝕄 :=
  iprop((iLoc d ↦{tok w} m (iLoc d)) ∗ (xLoc d ↦{tok w} m (xLoc d)) ∗ oLoc d ↦[blkSet w]{fullShare} G m d)

instance tileGo_storable (d : Dev nD) (w : Fin 32) : BI.Storable (upEmb : UEmb _ 𝕄) (tileGo m d w) := by
  unfold tileGo; infer_instance
instance tileTd_storable (d : Dev nD) (w : Fin 32) : BI.Storable (upEmb : UEmb _ 𝕄) (tileTd m d w) := by
  unfold tileTd; infer_instance

/-- The one call's payloads: a SparseCore gets its sixteen workers' parts together and deals them; nothing of the
    launch's ghost state is consumed by a worker. -/
def P : (K (F := F)).Pay (nD := nD) (Val := Elt F) (Name := ℕ) (U := UU) where
  st := fun q d c => bigSep Finset.univ fun i : Fin ((K (F := F)).nSub q) => tileGo m d (wid c.val i.val)
  dn := fun q d c => bigSep Finset.univ fun i : Fin ((K (F := F)).nSub q) => tileTd m d (wid c.val i.val)
  go := fun _ d c i => tileGo m d (wid c.val i.val)
  td := fun _ d c i => tileTd m d (wid c.val i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.IdealSide

end
-- ==== Proof.IdealTile.lean ====
/-
  The kernel side, second part: one worker's task.

  Worker `w = 2 i + c` copies its 512 labels into its own memory, gathers the table rows they name into its second
  buffer, and copies that buffer onto block `w` of the result. Every label is below 100000, so every row it names is a
  row of the table and the gather is served. Entry `(r, k)` of the gathered buffer is the table's entry at row
  `label (512 w + r)`, column `k`; the copy puts it at entry `(512 w + r, k)` of the result: block `w` ends holding
  the looked-up rows.
-/
import proofs.«204377_g71743133712511_cont_9to1c4b_469_16_alg».proof.Proof.IdealSetup

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- What the proofs ask of the launch memory: every label is below 100000. -/
def PreOK : Prop := ∀ (d : Dev nD) j, (m (iLoc d) j).toNat < 100000

variable [FloatOps F]

/-- The arrays and the worker's two buffers, as the body table passes them. -/
abbrev iV : Memref sig .scVector .hbm S16384 .i32 := Memref.whole main_arg0_scv
abbrev xV : Memref sig .scVector .hbm S100001x128 .f32 := Memref.whole main_arg1_scv
abbrev sI : Memref sig .scVector .vmem S512 .i32 := Memref.whole cc0_scratch0
abbrev sR : Memref sig .scVector .vmem S512x128 .f32 := Memref.whole cc0_scratch1

section Tile

variable (d : Dev nD) (L : grid0.Coords)

abbrev cV (L : grid0.Coords) : Fin τ.nSC := (L 0).castLE hcore0
abbrev jV (L : grid0.Coords) : Fin τ.nSub := (L 1).castLE hsub0
/-- The worker's number. -/
abbrev wL (L : grid0.Coords) : Fin 32 := wid (L 0).val (L 1).val

/-- The worker's labels and its block of the result, as the kernel slices them. -/
abbrev iSl (L : grid0.Coords) : Memref sig .scVector .hbm S512 .i32 :=
  (iV : Memref sig .scVector .hbm S16384 .i32).slice (Rect.unit (s := S16384) (k0_off1 L) S512.size (k0_off1_inb L)) (fun _ => rfl)
abbrev oRect (L : grid0.Coords) : Rect S16384x128 := Rect.unit (s := S16384x128) (k0_off2 L) S512x128.size (k0_off2_inb L)
abbrev oSl (L : grid0.Coords) : Memref sig .scVector .hbm S512x128 .f32 :=
  (oV : Memref sig .scVector .hbm S16384x128 .f32).slice (oRect L) (fun _ => rfl)

/-- The three cells the task's transfers complete on. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨fun e => absurd (Prod.mk.inj e).2 (by decide), (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := cBcell d (cV L) (jV L))).mpr ⟨rfl, by show (SemLoc.dma cc0_scoped1.sem : SemLoc sig).isScoped .scVector = true; decide⟩⟩⟩)]

omit [FloatOps F] in
/-- The two buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The kernel's slice of the result is the worker's block. -/
theorem oRect_eq : oRect L = blk (wL L) := by
  have h0 : (L 0).val < 2 := (L 0).isLt
  have h1 : (L 1).val < 16 := (L 1).isLt
  have hw : (wL L).val = 2 * (L 1).val + (L 0).val := wid_val h0 h1
  unfold oRect blk Rect.part Rect.block
  congr 1 <;> funext a
  · rw [k0_off2_eq]
    match a with
    | 0 => simp [Shape.partIx, Shape.partSize, hw]; omega
    | 1 => simp [Shape.partIx, Shape.partSize]
  · match a with
    | 0 => simp [Shape.partSize]
    | 1 => simp [Shape.partSize]

omit [FloatOps F] in
theorem set_oSl : (oSl L).view.set = blkSet (wL L) := by
  show ((oV : Memref sig .scVector .hbm S16384x128 .f32).view.slice (oRect L)).set
    = ((oV : Memref sig .scVector .hbm S16384x128 .f32).view.slice (blk (wL L))).set
  rw [oRect_eq]

omit [FloatOps F] in
theorem pts_oSl (f : Buf (Elt F) (oLoc d)) :
    ((oSl L).view.loc (V d (cV L) (jV L)) ↦[(oSl L).view.set]{fullShare} f : sProp 𝕄) = oLoc d ↦[blkSet (wL L)]{fullShare} f := by
  rw [set_oSl]
omit [FloatOps F] in
theorem pts_iV (q : PosShare TreeShare) (f : Buf (Elt F) (iLoc d)) :
    ((iV : Memref sig .scVector .hbm S16384 .i32).view.loc (V d (cV L) (jV L)) ↦{q} f : sProp 𝕄) = iLoc d ↦{q} f := rfl
omit [FloatOps F] in
theorem pts_xV (q : PosShare TreeShare) (f : Buf (Elt F) (xLoc d)) :
    ((xV : Memref sig .scVector .hbm S100001x128 .f32).view.loc (V d (cV L) (jV L)) ↦{q} f : sProp 𝕄) = xLoc d ↦{q} f := rfl
omit [FloatOps F] in
theorem pts_sI (f : Buf (Elt F) ((V d (cV L) (jV L)).loc cc0_scratch0)) :
    ((sI : Memref sig .scVector .vmem S512 .i32).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR : Memref sig .scVector .vmem S512x128 .f32).view.loc (V d (cV L) (jV L)) ↦{fullShare} f : sProp 𝕄) = (V d (cV L) (jV L)).loc cc0_scratch1 ↦{fullShare} f := rfl

/-! ## What the block ends holding -/

/-- The table as the gather names it: a slice that is the whole array. -/
abbrev xSl : Memref sig .scVector .hbm S100001x128 .f32 :=
  (xV : Memref sig .scVector .hbm S100001x128 .f32).slice (Rect.unit (s := S100001x128) ![0, 0] S100001x128.size inb_S100001x128_S100001x128_0_0) (fun _ => rfl)

omit [FloatOps F] in
/-- Two contents that agree at every element of a view are one points-to of the view's elements. -/
theorem pointsTo_view_congr {κ : Kind} {sp : Space} {s : Shape} {e : EltTy} (c : Thread nD τ) (hk : c.2.kind = κ)
    (v : View sig c.2.kind sp s e) (q : PosShare TreeShare) (f g : Buf (Elt F) (v.loc c))
    (h : ∀ y, f (v.emb y) = g (v.emb y)) : (v.loc c ↦[v.set]{q} f : sProp 𝕄) = v.loc c ↦[v.set]{q} g :=
  pointsTo_congr fun i hi => by
    obtain ⟨x, -, rfl⟩ := Finset.mem_map.mp hi
    exact h x

omit [FloatOps F] in
/-- The first coordinate of a rank-one index recovered from its row-major position is that position. -/
theorem rowMajor_symm_one (k : Fin S512.numel) : ((S512.rowMajor.symm k) 0).val = k.val := by
  have h := Shape.rowMajor_val_one (d := ![512]) (S512.rowMajor.symm k)
  rw [Equiv.apply_symm_apply] at h
  exact h.symm

omit [FloatOps F] in
/-- The worker's labels and its block start at the same row. -/
theorem off_eq : k0_off1 L 0 = k0_off2 L 0 := by
  rw [k0_off1_eq, k0_off2_eq]; rfl

variable {m} in
/-- ONE WORKER'S BLOCK: after the label copy, the gather and the copy out, the element of the result under element
    `y` of the block holds the table's entry at the row label `512 w + y₀` names, column `y₁`: the lookup. -/
theorem block_value (hpre : PreOK m) (fo : Buf (Elt F) (oLoc d))
    (f0 : Buf (Elt F) ((sI : Memref sig .scVector .vmem S512 .i32).view.loc (V d (cV L) (jV L))))
    (f1 : Buf (Elt F) ((sR : Memref sig .scVector .vmem S512x128 .f32).view.loc (V d (cV L) (jV L))))
    (hn : S512.numel = S512x128.size (gathers_S100001x128_S512x128).axis')
    (hx : ∀ x, ((sI : Memref sig .scVector .vmem S512 .i32).view.read (Elt F)
        ((sI : Memref sig .scVector .vmem S512 .i32).view.write (Elt F) f0
          (ReadAs.same.apply ((iSl L).view.read (Elt F) (m (iLoc d)))) Finset.univ) x).toNat
        < S100001x128.size (gathers_S100001x128_S512x128).axis)
    (y : S512x128.Idx) :
    (oSl L).view.writes (Elt F) fo [⟨Rect.whole S512x128, ReadAs.same.apply ((sR : Memref sig .scVector .vmem S512x128 .f32).view.read (Elt F)
        ((sR : Memref sig .scVector .vmem S512x128 .f32).view.writes (Elt F) f1
          [⟨Rect.whole S512x128, SparseCore.gatherPayload gathers_S100001x128_S512x128 ((xSl).view.read (Elt F) (m (xLoc d)))
            (SparseCore.rows ((sI : Memref sig .scVector .vmem S512 .i32).view.read (Elt F)
              ((sI : Memref sig .scVector .vmem S512 .i32).view.write (Elt F) f0
                (ReadAs.same.apply ((iSl L).view.read (Elt F) (m (iLoc d)))) Finset.univ)) hn hx)⟩]))⟩]
      ((oSl L).view.emb y) = G m d ((oSl L).view.emb y) := by
  -- an element under a whole-block write reads the payload
  have e1 : ∀ (X : S512x128.Idx → Elt F .f32), (oSl L).view.writes (Elt F) fo [⟨Rect.whole S512x128, X⟩] ((oSl L).view.emb y) = X y := by
    intro X
    have h := View.read_writes_cons_emb (Val := Elt F) (oSl L).view fo (Rect.whole S512x128) X [] y
    rw [Rect.emb_whole_apply, View.read_apply, cast_eq] at h
    exact h
  have e2 : ∀ (X : S512x128.Idx → Elt F .f32), (sR : Memref sig .scVector .vmem S512x128 .f32).view.read (Elt F)
      ((sR : Memref sig .scVector .vmem S512x128 .f32).view.writes (Elt F) f1 [⟨Rect.whole S512x128, X⟩]) y = X y := by
    intro X
    have h := View.read_writes_cons_emb (Val := Elt F) (sR : Memref sig .scVector .vmem S512x128 .f32).view f1 (Rect.whole S512x128) X [] y
    rw [Rect.emb_whole_apply] at h
    exact h
  rw [e1, ReadAs.apply_same, e2]
  show (xSl).view.read (Elt F) (m (xLoc d)) ((gathers_S100001x128_S512x128).idx (SparseCore.rows _ hn hx) y) = _
  rw [View.read_apply, cast_eq]
  show m (xLoc d) _ = m (xLoc d) (ValueIdx.ix2 (Cert.Spec.rowOf (m (iLoc d) (ValueIdx.ix1 ((oSl L).view.emb y 0 : Fin 16384))))
    ((oSl L).view.emb y 1 : Fin 128))
  refine congrArg (m (xLoc d)) ?_
  funext a; apply Fin.ext
  match a with
  | ⟨0, h0⟩ =>
    -- the row: the label the list holds for the element's row, which is the label at the element's own row of the result
    have hA := congrArg Fin.val (Shape.Gathers.idx_axis (gathers_S100001x128_S512x128) (SparseCore.rows _ hn hx) y)
    show 0 + 1 * ((gathers_S100001x128_S512x128).idx (SparseCore.rows _ hn hx) y ⟨0, h0⟩).val = (Cert.Spec.rowOf _).val
    rw [Nat.zero_add, Nat.one_mul]
    refine hA.trans ?_
    show ((sI : Memref sig .scVector .vmem S512 .i32).view.read (Elt F)
        ((sI : Memref sig .scVector .vmem S512 .i32).view.write (Elt F) f0
          (ReadAs.same.apply ((iSl L).view.read (Elt F) (m (iLoc d)))) Finset.univ)
        (S512.rowMajor.symm ((y (gathers_S100001x128_S512x128).axis').cast hn.symm))).toNat = _
    have eL : (sI : Memref sig .scVector .vmem S512 .i32).view.write (Elt F) f0
          (ReadAs.same.apply ((iSl L).view.read (Elt F) (m (iLoc d)))) Finset.univ
        = ReadAs.same.apply ((iSl L).view.read (Elt F) (m (iLoc d))) := View.write_whole_univ _ _ _
    rw [eL]
    show ((iSl L).view.read (Elt F) (m (iLoc d)) (S512.rowMajor.symm ((y (gathers_S100001x128_S512x128).axis').cast hn.symm))).toNat = _
    rw [View.read_apply, cast_eq, Cert.Spec.rowOf_val (Nat.lt_trans (hpre d _) (by decide))]
    refine congrArg (fun j => (m (iLoc d) j).toNat) ?_
    funext b; apply Fin.ext
    match b with
    | ⟨0, _⟩ =>
      show k0_off1 L 0 + 1 * ((S512.rowMajor.symm ((y (gathers_S100001x128_S512x128).axis').cast hn.symm)) 0).val
        = k0_off2 L 0 + 1 * (y 0).val
      rw [rowMajor_symm_one, off_eq]; rfl
  | ⟨1, h1⟩ =>
    -- the column: kept
    have hB := Shape.Gathers.idx_of_ne (gathers_S100001x128_S512x128) (SparseCore.rows _ hn hx) y ⟨1, h1⟩ Nat.one_ne_zero
    show 0 + 1 * ((gathers_S100001x128_S512x128).idx (SparseCore.rows _ hn hx) y ⟨1, h1⟩).val = k0_off2 L 1 + 1 * (y 1).val
    rw [hB, k0_off2_eq]; show 0 + 1 * (y 1).val = 0 + 1 * (y 1).val; rfl

/-! ## The task -/

/-- What the task leaves: its two read shares, and its block of the result at contents that agree with the lookup at
    every element of the block. -/
def blockDone : sProp 𝕄 :=
  iprop((iLoc d ↦{tok (wL L)} m (iLoc d)) ∗ (xLoc d ↦{tok (wL L)} m (xLoc d))
    ∗ ∃ fo' : Buf (Elt F) (oLoc d), ((oSl L).view.loc (V d (cV L) (jV L)) ↦[(oSl L).view.set]{fullShare} fo')
        ∗ ⌜∀ y, fo' ((oSl L).view.emb y) = G m d ((oSl L).view.emb y)⌝)

omit [FloatOps F] in
/-- which is what the launch takes back from the worker. -/
theorem blockDone_td : blockDone m d L ⊢ tileTd m d (wL L) := by
  unfold blockDone tileTd
  iintro ⟨Hi, Hx, %fo', Ho, %hfo⟩
  isplitl [Hi]; · iexact Hi
  isplitl [Hx]; · iexact Hx
  iapply (Entails.of_eq ((pointsTo_view_congr (F := F) (V d (cV L) (jV L)) rfl (oSl L).view fullShare fo' (G m d) hfo).trans
    (pts_oSl (F := F) d L _)))
  iexact Ho

variable {m} in
/-- The task on vector subcore `(L 0, L 1)` of device `d`: the label copy and its wait, the gather and its wait, the copy
    out and its wait; the worker's block of the result ends at the lookup. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileGo m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_embed L iV (Memref.isWhole_whole _) xV (Memref.isWhole_whole _) oV (Memref.isWhole_whole _)
            sI (Memref.isWhole_whole _) sR (Memref.isWhole_whole _) cc0_scratch2 cc0_scoped0 cc0_scoped1)
          fun _ => iprop(blockDone m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_embed_eq_skeleton]; unfold cc0_embed_skel
  rw [(K (F := F)).scopedBufs_V hF d (cV L) (jV L), SparseCore.Cfg.scopedSems0_V (Val := Elt F) d (cV L) (jV L), ownSems0_V, ownBufs_V]
  unfold tileGo blockDone
  iintro ⟨#Hlv, -, ⟨Hi, Hx, Ho⟩, ⟨⟨%f0, Hs0⟩, ⟨%f1, Hs1⟩, Hbufs⟩, ⟨HsemA, HsemG, HsemB, Hsems⟩, HO⟩
  ihave Hmw := ((K (F := F)).mayWaits_none (thr := V d (cV L) (jV L)) hO) $$ Hlv
  ihave Hi' := (Entails.of_eq (pts_iV (F := F) d L _ _).symm) $$ Hi
  ihave Hx' := (Entails.of_eq (pts_xV (F := F) d L _ _).symm) $$ Hx
  ihave Ho' := (Entails.of_eq (pts_oSl (F := F) d L _).symm) $$ Ho
  ihave Hs0' := (Entails.of_eq (pts_sI (F := F) d L _).symm) $$ Hs0
  ihave Hs1' := (Entails.of_eq (pts_sR (F := F) d L _).symm) $$ Hs1
  -- every label the list will hold names a row of the table, whatever the list held before
  have hin : ∀ (g : Buf (Elt F) ((sI : Memref sig .scVector .vmem S512 .i32).view.loc (V d (cV L) (jV L)))) x,
      ((sI : Memref sig .scVector .vmem S512 .i32).view.read (Elt F)
        ((sI : Memref sig .scVector .vmem S512 .i32).view.write (Elt F) g
          (ReadAs.same.apply ((iSl L).view.read (Elt F) (m (iLoc d)))) Finset.univ) x).toNat
        < S100001x128.size (gathers_S100001x128_S512x128).axis := by
    intro g x
    have e : (sI : Memref sig .scVector .vmem S512 .i32).view.write (Elt F) g
          (ReadAs.same.apply ((iSl L).view.read (Elt F) (m (iLoc d)))) Finset.univ
        = ReadAs.same.apply ((iSl L).view.read (Elt F) (m (iLoc d))) := View.write_whole_univ _ _ _
    rw [e]
    refine Nat.lt_trans ?_ (show 100000 < 100001 by decide)
    exact hpre d ((iSl L).view.emb x)
  sl_exec
  sl_step
  isplitl [Hi' Hx' Ho']
  · isplitl [Hi']; · iapply (Entails.of_eq (pts_iV (F := F) d L _ _)); iexact Hi'
    isplitl [Hx']; · iapply (Entails.of_eq (pts_xV (F := F) d L _ _)); iexact Hx'
    -- the block holds the lookup
    iexists _; isplitl [Ho']; · iexact Ho'
    ipureintro; exact fun y => block_value d L hpre (m (oLoc d)) f0 f1 rfl (hin f0) y
  isplitl [Hs0' Hs1' Hbufs]
  · isplitl [Hs0']; · iexists _; iapply (Entails.of_eq (pts_sI (F := F) d L _)); iexact Hs0'
    isplitl [Hs1']; · iexists _; iapply (Entails.of_eq (pts_sR (F := F) d L _)); iexact Hs1'
    iexact Hbufs
  isplitl [HsemA HsemG HsemB Hsems]
  · isplitl [HsemA]; · iexact HsemA
    isplitl [HsemG]; · iexact HsemG
    isplitl [HsemB]; · iexact HsemB
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_embed (coordsV c s)
          iV (Memref.isWhole_whole _) xV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem tile_post (d : Dev nD) (L : grid0.Coords) {thr : Thread nD τ} {B C : sProp 𝕄} {O : CellTallies nD τ sig (HIx 1)} {W : Waits sig (HIx 1)} {q : Fin 1} :
    iprop(blockDone m d L ∗ B ∗ C ∗ ∃ W', ⌜∀ p ∈ W', p ∈ W ∨ p.2 = none⌝ ∗ owes thr O W')
      ⊢ iprop(tileTd m d (wL L) ∗ B ∗ C ∗ ∃ W', ⌜∀ p ∈ W', p ∈ W ∨ p.2 = none ∨ p.2 = some q⌝ ∗ owes thr O W') := by
  have h : iprop(blockDone m d L ∗ B ∗ C ∗ ∃ W', ⌜∀ p ∈ W', p ∈ W ∨ p.2 = none⌝ ∗ owes thr O W')
      ⊢ iprop(tileTd m d (wL L) ∗ B ∗ C ∗ ∃ W', ⌜∀ p ∈ W', p ∈ W ∨ p.2 = none⌝ ∗ owes thr O W') := by
    iintro ⟨Hb, Hrest⟩
    isplitl [Hb]; · iapply (blockDone_td m d L); iexact Hb
    iexact Hrest
  exact h.trans obl_post

variable {m} in
/-- Every worker's task meets the launch theorem's obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF hpre O W hO).trans (wp_mono frame _ _ fun _ => tile_post m d _)

end Cert.Proof.IdealSide

end
-- ==== Proof.IdealLaunch.lean ====
/-
  The kernel side, the launch: from "every worker's task is proved" to the run of the whole program.

  The program's main thread holds the three arrays whole. It starts the two groups of sixteen workers, waits for
  them, and ends. To start them it must hand each of the thirty-two workers its part: a read share of the labels, a
  read share of the table, and its own block of rows of the result. So the labels and the table are each cut into
  thirty-two read shares and a remainder that is kept aside, and the result is cut into its thirty-two row blocks,
  which are pairwise disjoint and cover it. The parts are dealt by group and by place in the group; since
  (group c, place i) ↦ worker 2 i + c is a bijection onto the thirty-two workers, dealing that way is dealing one
  part to each worker. When the workers are done the same parts come back, every block now holding the looked-up
  rows: the shares rejoin with the remainders into the whole labels and table, unchanged, and the blocks rejoin into
  the whole result, which is the lookup. Reading the final memory against that gives the claim.
-/
import proofs.«204377_g71743133712511_cont_9to1c4b_469_16_alg».proof.Proof.IdealSetup

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## A group's parts are its workers' parts -/

/-- What a group is handed is, by definition, its sixteen workers' parts side by side; so is what it hands back. -/
theorem vecSplit : (K (F := F)).VecSplit' (P m) 0 := by
  intro d c
  show (bigSep Finset.univ fun i : Fin ((K (F := F)).nSub 0) => tileGo m d (wid c.val i.val)) ⊢ |={Set.univ}=> iprop(
      (bigSep Finset.univ fun i : Fin ((K (F := F)).nSub 0) => tileGo m d (wid c.val i.val))
      ∗ ((bigSep Finset.univ fun i : Fin ((K (F := F)).nSub 0) => tileTd m d (wid c.val i.val))
          -∗ bigSep Finset.univ fun i : Fin ((K (F := F)).nSub 0) => tileTd m d (wid c.val i.val)))
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Group and place against worker number -/

/-- Distinct (group, place) pairs are distinct workers: 2 i + c determines c (its parity) and i. -/
theorem wid_injective : Function.Injective (fun p : Fin 2 × Fin 16 => wid p.1.val p.2.val) := by
  rintro ⟨c, i⟩ ⟨c', i'⟩ h
  have hv : (wid c.val i.val).val = (wid c'.val i'.val).val := congrArg Fin.val h
  rw [wid_val c.isLt i.isLt, wid_val c'.isLt i'.isLt] at hv
  have hc := c.isLt
  have hc' := c'.isLt
  exact Prod.ext (Fin.ext (by show c.val = c'.val; omega)) (Fin.ext (by show i.val = i'.val; omega))

/-- Every worker w is a pair: group w mod 2, place w div 2. -/
theorem wid_surjective : Function.Surjective (fun p : Fin 2 × Fin 16 => wid p.1.val p.2.val) := by
  intro w
  have hw := w.isLt
  refine ⟨(⟨w.val % 2, Nat.mod_lt _ (by decide)⟩, ⟨w.val / 2, by omega⟩), Fin.ext ?_⟩
  show (wid (w.val % 2) (w.val / 2)).val = w.val
  rw [wid_val (Nat.mod_lt _ (by decide)) (by omega)]
  omega

/-- (group, place) ↦ worker, as a one-to-one correspondence. -/
def widEquiv : Fin 2 × Fin 16 ≃ Fin 32 := Equiv.ofBijective _ ⟨wid_injective, wid_surjective⟩

/-- Dealing by group, then by place in the group, is dealing one part to each of the thirty-two workers. -/
theorem bigSep_workers (Φ : Fin 32 → sProp 𝕄) :
    (bigSep (Finset.univ : Finset (Fin ((K (F := F)).nCore 0))) fun c =>
        bigSep (Finset.univ : Finset (Fin ((K (F := F)).nSub 0))) fun i => Φ (wid c.val i.val))
      = bigSep (Finset.univ : Finset (Fin 32)) Φ := by
  show (bigSep (Finset.univ : Finset (Fin 2)) fun c => bigSep (Finset.univ : Finset (Fin 16)) fun i => Φ (wid c.val i.val)) = _
  rw [← bigSep_univ_prod (fun p : Fin 2 × Fin 16 => Φ (wid p.1.val p.2.val)), bigSep_univ_equiv widEquiv Φ]
  rfl

/-! ## The result as its thirty-two row blocks -/

theorem blkSet_eq (w : Fin 32) : blkSet w = (blk w).set := by
  show ((View.whole (main_v0_scv : Ref sig .scVector)).slice (blk w)).set = _
  rw [View.set_slice]; exact Finset.map_refl

theorem blks_disjoint : ∀ i ∈ (Finset.univ : Finset (Fin 32)), ∀ j ∈ (Finset.univ : Finset (Fin 32)), i ≠ j → Disjoint (blkSet i) (blkSet j) :=
  fun i _ j _ h => by rw [blkSet_eq, blkSet_eq]; exact Rect.part_disjoint hdiv h

theorem blks_cover : (Finset.univ : Finset (Fin 32)).biUnion blkSet = Finset.univ :=
  (Finset.biUnion_congr rfl fun i _ => blkSet_eq i).trans (Rect.biUnion_part hdiv)

/-- The whole result held at `f` is its thirty-two blocks, each held at `f`. -/
theorem oPts_blks (d : Dev nD) (f : Buf (Elt F) (oLoc d)) :
    (oLoc d ↦{fullShare} f : sProp 𝕄) = bigSep Finset.univ fun w : Fin 32 => oLoc d ↦[blkSet w]{fullShare} f := by
  rw [← pointsTo_biUnion Finset.univ (ℓ := oLoc d) blkSet blks_disjoint, blks_cover]; try rfl

/-! ## What the two groups are handed together, and hand back -/

/-- To the two groups together: a read share of the labels and of the table per worker, and every block of the
    result as the launch found it. -/
theorem st0_eq (d : Dev nD) :
    (bigSep Finset.univ fun c : Fin ((K (F := F)).nCore 0) => (P m).st 0 d c)
      = iprop((bigSep Finset.univ fun w : Fin 32 => iLoc d ↦{tok w} m (iLoc d))
          ∗ (bigSep Finset.univ fun w : Fin 32 => xLoc d ↦{tok w} m (xLoc d))
          ∗ bigSep Finset.univ fun w : Fin 32 => oLoc d ↦[blkSet w]{fullShare} m (oLoc d)) := by
  show (bigSep Finset.univ fun c : Fin ((K (F := F)).nCore 0) =>
      bigSep Finset.univ fun i : Fin ((K (F := F)).nSub 0) => tileGo m d (wid c.val i.val)) = _
  rw [bigSep_workers (F := F) (fun w => tileGo m d w)]
  unfold tileGo
  rw [bigSep_sep', bigSep_sep']

/-- Back from them: the same shares, and every block holding the looked-up rows. -/
theorem dn0_eq (d : Dev nD) :
    (bigSep Finset.univ fun c : Fin ((K (F := F)).nCore 0) => (P m).dn 0 d c)
      = iprop((bigSep Finset.univ fun w : Fin 32 => iLoc d ↦{tok w} m (iLoc d))
          ∗ (bigSep Finset.univ fun w : Fin 32 => xLoc d ↦{tok w} m (xLoc d))
          ∗ bigSep Finset.univ fun w : Fin 32 => oLoc d ↦[blkSet w]{fullShare} G m d) := by
  show (bigSep Finset.univ fun c : Fin ((K (F := F)).nCore 0) =>
      bigSep Finset.univ fun i : Fin ((K (F := F)).nSub 0) => tileTd m d (wid c.val i.val)) = _
  rw [bigSep_workers (F := F) (fun w => tileTd m d w)]
  unfold tileTd
  rw [bigSep_sep', bigSep_sep']

/-! ## The main thread -/

/-- The main thread's arrays that outlive the call: the labels, the table and the result. -/
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the main thread ends holding: the labels and the table whole and unchanged, the result whole and equal to
    the lookup. -/
abbrev FIN (d : Dev nD) : sProp 𝕄 :=
  iprop((iLoc d ↦{fullShare} m (iLoc d)) ∗ (xLoc d ↦{fullShare} m (xLoc d)) ∗ oLoc d ↦{fullShare} G m d)

/-- The main thread on device `d`: cut the arrays, start the workers, wait, put the arrays back together. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  ihave Hi' := (Transfers.pointsTo_toks_split fullShare 32) $$ Hi
  icases Hi' with ⟨Hid, Hit⟩
  ihave Hx' := (Transfers.pointsTo_toks_split fullShare 32) $$ Hx
  icases Hx' with ⟨Hxd, Hxt⟩
  ihave Hob := (Entails.of_eq (oPts_blks d (m (oLoc d)))) $$ Ho
  iapply ((K (F := F)).wp_run (D (F := F)) 𝒱 (EH := EH) (P := P m) κ d 0) $$ [Hst Hit Hxt Hob Hid Hxd]
  isplitr; · iexact Hctx
  isplitl [Hst]; · iexact Hst
  isplitl [Hit Hxt Hob]
  · rw [st0_eq]
    isplitl [Hit]; · iexact Hit
    isplitl [Hxt]; · iexact Hxt
    iexact Hob
  iintro ⟨Hst, Hdn⟩
  ihave Hdn' := (Entails.of_eq (dn0_eq m d)) $$ Hdn
  icases Hdn' with ⟨Hit, Hxt, Hob⟩
  imodintro
  isplitl [Hst]; · iexact Hst
  isplitl [Hid Hit]
  · iapply (Transfers.pointsTo_toks_join fullShare 32)
    isplitl [Hid]; · iexact Hid
    iexact Hit
  isplitl [Hxd Hxt]
  · iapply (Transfers.pointsTo_toks_join fullShare 32)
    isplitl [Hxd]; · iexact Hxd
    iexact Hxt
  rw [oPts_blks]; iexact Hob

/-! ## Reading the final memory -/

def fq (d : Dev nD) (s' : Phys nD τ sig (Elt F)) : Prop :=
  s'.mem.mem (oLoc d) = G m d ∧ s'.mem.mem (iLoc d) = m (iLoc d) ∧ s'.mem.mem (xLoc d) = m (xLoc d)

/-- An array held whole at the end is what the final memory holds. -/
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the result is the lookup of the inputs as they were at the start, and the inputs are unchanged. -/
def QC : PUnit × MemSt nD τ sig (Elt F) → Prop := fun r => ∀ c : Dev nD,
  r.2.mem (oLoc c) = G m c ∧ r.2.mem (iLoc c) = m (iLoc c) ∧ r.2.mem (xLoc c) = m (xLoc c)

/-- If every worker's task, from its part as dealt, ends with its part as it must come back, then every execution of
    the whole program ends, with the result equal to the lookup and the inputs unchanged. -/
theorem run_of_tile [FloatOps F] [∀ e, Nonempty (Elt F e)]
    (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.IdealSide

end
-- ==== Proof.BitsSetup.lean ====
/-
  The kernel side, first part: what the proofs about the lookup kernel share.

  The kernel runs on thirty-two vector subcores at once (two SparseCores of sixteen). Subcore `i` of SparseCore `c`
  is worker `w = 2 i + c`; it copies labels `512 w … 512 w + 511` into its own memory, gathers the table rows those
  labels name, and copies the 512 gathered rows to rows `512 w … 512 w + 511` of the result. The workers' row blocks
  are the thirty-two equal parts of the result along its first axis: pairwise disjoint, covering it.

  Here: the program as the launch theorem reads it; the resource algebra (the launch handshakes' rounds beside the
  transfers' counters: the kernel only starts local copies and waits for them, so it needs no schedule of its own);
  the specification at this program's arrays; and what the launch hands each worker and takes back — a read share of
  the labels and of the table, and its own block of the result, which comes back holding the looked-up rows.
-/
import proofs.«204377_g71743133712511_cont_9to1c4b_469_16_alg».proof.Defs
import proofs.«204377_g71743133712511_cont_9to1c4b_469_16_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«204377_g71743133712511_cont_9to1c4b_469_16_alg».proof.Proof.Gen.Kernel
import proofs.«204377_g71743133712511_cont_9to1c4b_469_16_alg».proof.Proof.Gen.Kernel.Skeleton

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the specification -/

variable (m : (ℓ : Loc nD τ sig) → Buf (Elt F) ℓ) (ρ : Dev nD → PrngReg)

/-- The labels, the table and the result, as locations of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- What the result holds at the end: row `e` is the table's row that label `e` names. -/
def G (d : Dev nD) : Buf (Elt F) (oLoc d) := Cert.Spec.lookup (m (iLoc d)) (m (xLoc d))

/-! ## The workers' blocks of the result -/

abbrev oV : Memref sig .scVector .hbm S16384x128 .f32 := Memref.whole main_v0_scv

theorem hdiv : 32 ∣ S16384x128.size 0 := ⟨512, rfl⟩
/-- Block `w` of the result: rows `512 w … 512 w + 511`, the `w`-th of thirty-two equal parts along axis 0. -/
abbrev blk (w : Fin 32) : Rect S16384x128 := Rect.part (s := S16384x128) (a₀ := 0) hdiv w
abbrev blkSet (w : Fin 32) : Finset S16384x128.Idx := ((oV : Memref sig .scVector .hbm S16384x128 .f32).view.slice (blk w)).set

/-- The worker number of subcore `i` of SparseCore `c`. -/
def wid (c i : ℕ) : Fin 32 := ⟨(2 * i + c) % 32, Nat.mod_lt _ (by decide)⟩

theorem wid_val {c i : ℕ} (hc : c < 2) (hi : i < 16) : (wid c i).val = 2 * i + c := Nat.mod_eq_of_lt (by omega)

/-! ## What the launch hands a worker, and takes back -/

/-- Worker `w`'s read share of an array. -/
abbrev tok (w : Fin 32) : PosShare TreeShare := Transfers.shareTok fullShare 32 w

/-- To worker `w`: its shares of the labels and the table, and block `w` of the result as the launch found it. -/
def tileGo (d : Dev nD) (w : Fin 32) : sProp 𝕄 :=
  iprop((iLoc d ↦{tok w} m (iLoc d)) ∗ (xLoc d ↦{tok w} m (xLoc d)) ∗ oLoc d ↦[blkSet w]{fullShare} m (oLoc d))
/-- Back from worker `w`: the shares, and block `w` holding the looked-up rows. -/
def tileTd (d : Dev nD) (w : Fin 32) : sProp 𝕄 :=
  iprop((iLoc d ↦{tok w} m (iLoc d)) ∗ (xLoc d ↦{tok w} m (xLoc d)) ∗ oLoc d ↦[blkSet w]{fullShare} G m d)

instance tileGo_storable (d : Dev nD) (w : Fin 32) : BI.Storable (upEmb : UEmb _ 𝕄) (tileGo m d w) := by
  unfold tileGo; infer_instance
instance tileTd_storable (d : Dev nD) (w : Fin 32) : BI.Storable (upEmb : UEmb _ 𝕄) (tileTd m d w) := by
  unfold tileTd; infer_instance

/-- The one call's payloads: a SparseCore gets its sixteen workers' parts together and deals them; nothing of the
    launch's ghost state is consumed by a worker. -/
def P : (K (F := F)).Pay (nD := nD) (Val := Elt F) (Name := ℕ) (U := UU) where
  st := fun q d c => bigSep Finset.univ fun i : Fin ((K (F := F)).nSub q) => tileGo m d (wid c.val i.val)
  dn := fun q d c => bigSep Finset.univ fun i : Fin ((K (F := F)).nSub q) => tileTd m d (wid c.val i.val)
  go := fun _ d c i => tileGo m d (wid c.val i.val)
  td := fun _ d c i => tileTd m d (wid c.val i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.BitsSide

end
-- ==== Proof.BitsTile.lean ====
/-
  The kernel side, second part: one worker's task.

  Worker `w = 2 i + c` copies its 512 labels into its own memory, gathers the table rows they name into its second
  buffer, and copies that buffer onto block `w` of the result. Every label is below 100000, so every row it names is a
  row of the table and the gather is served. Entry `(r, k)` of the gathered buffer is the table's entry at row
  `label (512 w + r)`, column `k`; the copy puts it at entry `(512 w + r, k)` of the result: block `w` ends holding
  the looked-up rows.
-/
import proofs.«204377_g71743133712511_cont_9to1c4b_469_16_alg».proof.Proof.BitsSetup

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- What the proofs ask of the launch memory: every label is below 100000. -/
def PreOK : Prop := ∀ (d : Dev nD) j, (m (iLoc d) j).toNat < 100000

variable [FloatOps F]

/-- The arrays and the worker's two buffers, as the body table passes them. -/
abbrev iV : Memref sig .scVector .hbm S16384 .i32 := Memref.whole main_arg0_scv
abbrev xV : Memref sig .scVector .hbm S100001x128 .f32 := Memref.whole main_arg1_scv
abbrev sI : Memref sig .scVector .vmem S512 .i32 := Memref.whole cc0_scratch0
abbrev sR : Memref sig .scVector .vmem S512x128 .f32 := Memref.whole cc0_scratch1

section Tile

variable (d : Dev nD) (L : grid0.Coords)

abbrev cV (L : grid0.Coords) : Fin τ.nSC := (L 0).castLE hcore0
abbrev jV (L : grid0.Coords) : Fin τ.nSub := (L 1).castLE hsub0
/-- The worker's number. -/
abbrev wL (L : grid0.Coords) : Fin 32 := wid (L 0).val (L 1).val

/-- The worker's labels and its block of the result, as the kernel slices them. -/
abbrev iSl (L : grid0.Coords) : Memref sig .scVector .hbm S512 .i32 :=
  (iV : Memref sig .scVector .hbm S16384 .i32).slice (Rect.unit (s := S16384) (k0_off1 L) S512.size (k0_off1_inb L)) (fun _ => rfl)
abbrev oRect (L : grid0.Coords) : Rect S16384x128 := Rect.unit (s := S16384x128) (k0_off2 L) S512x128.size (k0_off2_inb L)
abbrev oSl (L : grid0.Coords) : Memref sig .scVector .hbm S512x128 .f32 :=
  (oV : Memref sig .scVector .hbm S16384x128 .f32).slice (oRect L) (fun _ => rfl)

/-- The three cells the task's transfers complete on. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨fun e => absurd (Prod.mk.inj e).2 (by decide), (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := cBcell d (cV L) (jV L))).mpr ⟨rfl, by show (SemLoc.dma cc0_scoped1.sem : SemLoc sig).isScoped .scVector = true; decide⟩⟩⟩)]

omit [FloatOps F] in
/-- The two buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The kernel's slice of the result is the worker's block. -/
theorem oRect_eq : oRect L = blk (wL L) := by
  have h0 : (L 0).val < 2 := (L 0).isLt
  have h1 : (L 1).val < 16 := (L 1).isLt
  have hw : (wL L).val = 2 * (L 1).val + (L 0).val := wid_val h0 h1
  unfold oRect blk Rect.part Rect.block
  congr 1 <;> funext a
  · rw [k0_off2_eq]
    match a with
    | 0 => simp [Shape.partIx, Shape.partSize, hw]; omega
    | 1 => simp [Shape.partIx, Shape.partSize]
  · match a with
    | 0 => simp [Shape.partSize]
    | 1 => simp [Shape.partSize]

omit [FloatOps F] in
theorem set_oSl : (oSl L).view.set = blkSet (wL L) := by
  show ((oV : Memref sig .scVector .hbm S16384x128 .f32).view.slice (oRect L)).set
    = ((oV : Memref sig .scVector .hbm S16384x128 .f32).view.slice (blk (wL L))).set
  rw [oRect_eq]

omit [FloatOps F] in
theorem pts_oSl (f : Buf (Elt F) (oLoc d)) :
    ((oSl L).view.loc (V d (cV L) (jV L)) ↦[(oSl L).view.set]{fullShare} f : sProp 𝕄) = oLoc d ↦[blkSet (wL L)]{fullShare} f := by
  rw [set_oSl]
omit [FloatOps F] in
theorem pts_iV (q : PosShare TreeShare) (f : Buf (Elt F) (iLoc d)) :
    ((iV : Memref sig .scVector .hbm S16384 .i32).view.loc (V d (cV L) (jV L)) ↦{q} f : sProp 𝕄) = iLoc d ↦{q} f := rfl
omit [FloatOps F] in
theorem pts_xV (q : PosShare TreeShare) (f : Buf (Elt F) (xLoc d)) :
    ((xV : Memref sig .scVector .hbm S100001x128 .f32).view.loc (V d (cV L) (jV L)) ↦{q} f : sProp 𝕄) = xLoc d ↦{q} f := rfl
omit [FloatOps F] in
theorem pts_sI (f : Buf (Elt F) ((V d (cV L) (jV L)).loc cc0_scratch0)) :
    ((sI : Memref sig .scVector .vmem S512 .i32).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR : Memref sig .scVector .vmem S512x128 .f32).view.loc (V d (cV L) (jV L)) ↦{fullShare} f : sProp 𝕄) = (V d (cV L) (jV L)).loc cc0_scratch1 ↦{fullShare} f := rfl

/-! ## What the block ends holding -/

/-- The table as the gather names it: a slice that is the whole array. -/
abbrev xSl : Memref sig .scVector .hbm S100001x128 .f32 :=
  (xV : Memref sig .scVector .hbm S100001x128 .f32).slice (Rect.unit (s := S100001x128) ![0, 0] S100001x128.size inb_S100001x128_S100001x128_0_0) (fun _ => rfl)

omit [FloatOps F] in
/-- Two contents that agree at every element of a view are one points-to of the view's elements. -/
theorem pointsTo_view_congr {κ : Kind} {sp : Space} {s : Shape} {e : EltTy} (c : Thread nD τ) (hk : c.2.kind = κ)
    (v : View sig c.2.kind sp s e) (q : PosShare TreeShare) (f g : Buf (Elt F) (v.loc c))
    (h : ∀ y, f (v.emb y) = g (v.emb y)) : (v.loc c ↦[v.set]{q} f : sProp 𝕄) = v.loc c ↦[v.set]{q} g :=
  pointsTo_congr fun i hi => by
    obtain ⟨x, -, rfl⟩ := Finset.mem_map.mp hi
    exact h x

omit [FloatOps F] in
/-- The first coordinate of a rank-one index recovered from its row-major position is that position. -/
theorem rowMajor_symm_one (k : Fin S512.numel) : ((S512.rowMajor.symm k) 0).val = k.val := by
  have h := Shape.rowMajor_val_one (d := ![512]) (S512.rowMajor.symm k)
  rw [Equiv.apply_symm_apply] at h
  exact h.symm

omit [FloatOps F] in
/-- The worker's labels and its block start at the same row. -/
theorem off_eq : k0_off1 L 0 = k0_off2 L 0 := by
  rw [k0_off1_eq, k0_off2_eq]; rfl

variable {m} in
/-- ONE WORKER'S BLOCK: after the label copy, the gather and the copy out, the element of the result under element
    `y` of the block holds the table's entry at the row label `512 w + y₀` names, column `y₁`: the lookup. -/
theorem block_value (hpre : PreOK m) (fo : Buf (Elt F) (oLoc d))
    (f0 : Buf (Elt F) ((sI : Memref sig .scVector .vmem S512 .i32).view.loc (V d (cV L) (jV L))))
    (f1 : Buf (Elt F) ((sR : Memref sig .scVector .vmem S512x128 .f32).view.loc (V d (cV L) (jV L))))
    (hn : S512.numel = S512x128.size (gathers_S100001x128_S512x128).axis')
    (hx : ∀ x, ((sI : Memref sig .scVector .vmem S512 .i32).view.read (Elt F)
        ((sI : Memref sig .scVector .vmem S512 .i32).view.write (Elt F) f0
          (ReadAs.same.apply ((iSl L).view.read (Elt F) (m (iLoc d)))) Finset.univ) x).toNat
        < S100001x128.size (gathers_S100001x128_S512x128).axis)
    (y : S512x128.Idx) :
    (oSl L).view.writes (Elt F) fo [⟨Rect.whole S512x128, ReadAs.same.apply ((sR : Memref sig .scVector .vmem S512x128 .f32).view.read (Elt F)
        ((sR : Memref sig .scVector .vmem S512x128 .f32).view.writes (Elt F) f1
          [⟨Rect.whole S512x128, SparseCore.gatherPayload gathers_S100001x128_S512x128 ((xSl).view.read (Elt F) (m (xLoc d)))
            (SparseCore.rows ((sI : Memref sig .scVector .vmem S512 .i32).view.read (Elt F)
              ((sI : Memref sig .scVector .vmem S512 .i32).view.write (Elt F) f0
                (ReadAs.same.apply ((iSl L).view.read (Elt F) (m (iLoc d)))) Finset.univ)) hn hx)⟩]))⟩]
      ((oSl L).view.emb y) = G m d ((oSl L).view.emb y) := by
  -- an element under a whole-block write reads the payload
  have e1 : ∀ (X : S512x128.Idx → Elt F .f32), (oSl L).view.writes (Elt F) fo [⟨Rect.whole S512x128, X⟩] ((oSl L).view.emb y) = X y := by
    intro X
    have h := View.read_writes_cons_emb (Val := Elt F) (oSl L).view fo (Rect.whole S512x128) X [] y
    rw [Rect.emb_whole_apply, View.read_apply, cast_eq] at h
    exact h
  have e2 : ∀ (X : S512x128.Idx → Elt F .f32), (sR : Memref sig .scVector .vmem S512x128 .f32).view.read (Elt F)
      ((sR : Memref sig .scVector .vmem S512x128 .f32).view.writes (Elt F) f1 [⟨Rect.whole S512x128, X⟩]) y = X y := by
    intro X
    have h := View.read_writes_cons_emb (Val := Elt F) (sR : Memref sig .scVector .vmem S512x128 .f32).view f1 (Rect.whole S512x128) X [] y
    rw [Rect.emb_whole_apply] at h
    exact h
  rw [e1, ReadAs.apply_same, e2]
  show (xSl).view.read (Elt F) (m (xLoc d)) ((gathers_S100001x128_S512x128).idx (SparseCore.rows _ hn hx) y) = _
  rw [View.read_apply, cast_eq]
  show m (xLoc d) _ = m (xLoc d) (ValueIdx.ix2 (Cert.Spec.rowOf (m (iLoc d) (ValueIdx.ix1 ((oSl L).view.emb y 0 : Fin 16384))))
    ((oSl L).view.emb y 1 : Fin 128))
  refine congrArg (m (xLoc d)) ?_
  funext a; apply Fin.ext
  match a with
  | ⟨0, h0⟩ =>
    -- the row: the label the list holds for the element's row, which is the label at the element's own row of the result
    have hA := congrArg Fin.val (Shape.Gathers.idx_axis (gathers_S100001x128_S512x128) (SparseCore.rows _ hn hx) y)
    show 0 + 1 * ((gathers_S100001x128_S512x128).idx (SparseCore.rows _ hn hx) y ⟨0, h0⟩).val = (Cert.Spec.rowOf _).val
    rw [Nat.zero_add, Nat.one_mul]
    refine hA.trans ?_
    show ((sI : Memref sig .scVector .vmem S512 .i32).view.read (Elt F)
        ((sI : Memref sig .scVector .vmem S512 .i32).view.write (Elt F) f0
          (ReadAs.same.apply ((iSl L).view.read (Elt F) (m (iLoc d)))) Finset.univ)
        (S512.rowMajor.symm ((y (gathers_S100001x128_S512x128).axis').cast hn.symm))).toNat = _
    have eL : (sI : Memref sig .scVector .vmem S512 .i32).view.write (Elt F) f0
          (ReadAs.same.apply ((iSl L).view.read (Elt F) (m (iLoc d)))) Finset.univ
        = ReadAs.same.apply ((iSl L).view.read (Elt F) (m (iLoc d))) := View.write_whole_univ _ _ _
    rw [eL]
    show ((iSl L).view.read (Elt F) (m (iLoc d)) (S512.rowMajor.symm ((y (gathers_S100001x128_S512x128).axis').cast hn.symm))).toNat = _
    rw [View.read_apply, cast_eq, Cert.Spec.rowOf_val (Nat.lt_trans (hpre d _) (by decide))]
    refine congrArg (fun j => (m (iLoc d) j).toNat) ?_
    funext b; apply Fin.ext
    match b with
    | ⟨0, _⟩ =>
      show k0_off1 L 0 + 1 * ((S512.rowMajor.symm ((y (gathers_S100001x128_S512x128).axis').cast hn.symm)) 0).val
        = k0_off2 L 0 + 1 * (y 0).val
      rw [rowMajor_symm_one, off_eq]; rfl
  | ⟨1, h1⟩ =>
    -- the column: kept
    have hB := Shape.Gathers.idx_of_ne (gathers_S100001x128_S512x128) (SparseCore.rows _ hn hx) y ⟨1, h1⟩ Nat.one_ne_zero
    show 0 + 1 * ((gathers_S100001x128_S512x128).idx (SparseCore.rows _ hn hx) y ⟨1, h1⟩).val = k0_off2 L 1 + 1 * (y 1).val
    rw [hB, k0_off2_eq]; show 0 + 1 * (y 1).val = 0 + 1 * (y 1).val; rfl

/-! ## The task -/

/-- What the task leaves: its two read shares, and its block of the result at contents that agree with the lookup at
    every element of the block. -/
def blockDone : sProp 𝕄 :=
  iprop((iLoc d ↦{tok (wL L)} m (iLoc d)) ∗ (xLoc d ↦{tok (wL L)} m (xLoc d))
    ∗ ∃ fo' : Buf (Elt F) (oLoc d), ((oSl L).view.loc (V d (cV L) (jV L)) ↦[(oSl L).view.set]{fullShare} fo')
        ∗ ⌜∀ y, fo' ((oSl L).view.emb y) = G m d ((oSl L).view.emb y)⌝)

omit [FloatOps F] in
/-- which is what the launch takes back from the worker. -/
theorem blockDone_td : blockDone m d L ⊢ tileTd m d (wL L) := by
  unfold blockDone tileTd
  iintro ⟨Hi, Hx, %fo', Ho, %hfo⟩
  isplitl [Hi]; · iexact Hi
  isplitl [Hx]; · iexact Hx
  iapply (Entails.of_eq ((pointsTo_view_congr (F := F) (V d (cV L) (jV L)) rfl (oSl L).view fullShare fo' (G m d) hfo).trans
    (pts_oSl (F := F) d L _)))
  iexact Ho

variable {m} in
/-- The task on vector subcore `(L 0, L 1)` of device `d`: the label copy and its wait, the gather and its wait, the copy
    out and its wait; the worker's block of the result ends at the lookup. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileGo m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_embed L iV (Memref.isWhole_whole _) xV (Memref.isWhole_whole _) oV (Memref.isWhole_whole _)
            sI (Memref.isWhole_whole _) sR (Memref.isWhole_whole _) cc0_scratch2 cc0_scoped0 cc0_scoped1)
          fun _ => iprop(blockDone m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_embed_eq_skeleton]; unfold cc0_embed_skel
  rw [(K (F := F)).scopedBufs_V hF d (cV L) (jV L), SparseCore.Cfg.scopedSems0_V (Val := Elt F) d (cV L) (jV L), ownSems0_V, ownBufs_V]
  unfold tileGo blockDone
  iintro ⟨#Hlv, -, ⟨Hi, Hx, Ho⟩, ⟨⟨%f0, Hs0⟩, ⟨%f1, Hs1⟩, Hbufs⟩, ⟨HsemA, HsemG, HsemB, Hsems⟩, HO⟩
  ihave Hmw := ((K (F := F)).mayWaits_none (thr := V d (cV L) (jV L)) hO) $$ Hlv
  ihave Hi' := (Entails.of_eq (pts_iV (F := F) d L _ _).symm) $$ Hi
  ihave Hx' := (Entails.of_eq (pts_xV (F := F) d L _ _).symm) $$ Hx
  ihave Ho' := (Entails.of_eq (pts_oSl (F := F) d L _).symm) $$ Ho
  ihave Hs0' := (Entails.of_eq (pts_sI (F := F) d L _).symm) $$ Hs0
  ihave Hs1' := (Entails.of_eq (pts_sR (F := F) d L _).symm) $$ Hs1
  -- every label the list will hold names a row of the table, whatever the list held before
  have hin : ∀ (g : Buf (Elt F) ((sI : Memref sig .scVector .vmem S512 .i32).view.loc (V d (cV L) (jV L)))) x,
      ((sI : Memref sig .scVector .vmem S512 .i32).view.read (Elt F)
        ((sI : Memref sig .scVector .vmem S512 .i32).view.write (Elt F) g
          (ReadAs.same.apply ((iSl L).view.read (Elt F) (m (iLoc d)))) Finset.univ) x).toNat
        < S100001x128.size (gathers_S100001x128_S512x128).axis := by
    intro g x
    have e : (sI : Memref sig .scVector .vmem S512 .i32).view.write (Elt F) g
          (ReadAs.same.apply ((iSl L).view.read (Elt F) (m (iLoc d)))) Finset.univ
        = ReadAs.same.apply ((iSl L).view.read (Elt F) (m (iLoc d))) := View.write_whole_univ _ _ _
    rw [e]
    refine Nat.lt_trans ?_ (show 100000 < 100001 by decide)
    exact hpre d ((iSl L).view.emb x)
  sl_exec
  sl_step
  isplitl [Hi' Hx' Ho']
  · isplitl [Hi']; · iapply (Entails.of_eq (pts_iV (F := F) d L _ _)); iexact Hi'
    isplitl [Hx']; · iapply (Entails.of_eq (pts_xV (F := F) d L _ _)); iexact Hx'
    -- the block holds the lookup
    iexists _; isplitl [Ho']; · iexact Ho'
    ipureintro; exact fun y => block_value d L hpre (m (oLoc d)) f0 f1 rfl (hin f0) y
  isplitl [Hs0' Hs1' Hbufs]
  · isplitl [Hs0']; · iexists _; iapply (Entails.of_eq (pts_sI (F := F) d L _)); iexact Hs0'
    isplitl [Hs1']; · iexists _; iapply (Entails.of_eq (pts_sR (F := F) d L _)); iexact Hs1'
    iexact Hbufs
  isplitl [HsemA HsemG HsemB Hsems]
  · isplitl [HsemA]; · iexact HsemA
    isplitl [HsemG]; · iexact HsemG
    isplitl [HsemB]; · iexact HsemB
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_embed (coordsV c s)
          iV (Memref.isWhole_whole _) xV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem tile_post (d : Dev nD) (L : grid0.Coords) {thr : Thread nD τ} {B C : sProp 𝕄} {O : CellTallies nD τ sig (HIx 1)} {W : Waits sig (HIx 1)} {q : Fin 1} :
    iprop(blockDone m d L ∗ B ∗ C ∗ ∃ W', ⌜∀ p ∈ W', p ∈ W ∨ p.2 = none⌝ ∗ owes thr O W')
      ⊢ iprop(tileTd m d (wL L) ∗ B ∗ C ∗ ∃ W', ⌜∀ p ∈ W', p ∈ W ∨ p.2 = none ∨ p.2 = some q⌝ ∗ owes thr O W') := by
  have h : iprop(blockDone m d L ∗ B ∗ C ∗ ∃ W', ⌜∀ p ∈ W', p ∈ W ∨ p.2 = none⌝ ∗ owes thr O W')
      ⊢ iprop(tileTd m d (wL L) ∗ B ∗ C ∗ ∃ W', ⌜∀ p ∈ W', p ∈ W ∨ p.2 = none⌝ ∗ owes thr O W') := by
    iintro ⟨Hb, Hrest⟩
    isplitl [Hb]; · iapply (blockDone_td m d L); iexact Hb
    iexact Hrest
  exact h.trans obl_post

variable {m} in
/-- Every worker's task meets the launch theorem's obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF hpre O W hO).trans (wp_mono frame _ _ fun _ => tile_post m d _)

end Cert.Proof.BitsSide

end
-- ==== Proof.BitsLaunch.lean ====
/-
  The kernel side, the launch: from "every worker's task is proved" to the run of the whole program.

  The program's main thread holds the three arrays whole. It starts the two groups of sixteen workers, waits for
  them, and ends. To start them it must hand each of the thirty-two workers its part: a read share of the labels, a
  read share of the table, and its own block of rows of the result. So the labels and the table are each cut into
  thirty-two read shares and a remainder that is kept aside, and the result is cut into its thirty-two row blocks,
  which are pairwise disjoint and cover it. The parts are dealt by group and by place in the group; since
  (group c, place i) ↦ worker 2 i + c is a bijection onto the thirty-two workers, dealing that way is dealing one
  part to each worker. When the workers are done the same parts come back, every block now holding the looked-up
  rows: the shares rejoin with the remainders into the whole labels and table, unchanged, and the blocks rejoin into
  the whole result, which is the lookup. Reading the final memory against that gives the claim.
-/
import proofs.«204377_g71743133712511_cont_9to1c4b_469_16_alg».proof.Proof.BitsSetup

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## A group's parts are its workers' parts -/

/-- What a group is handed is, by definition, its sixteen workers' parts side by side; so is what it hands back. -/
theorem vecSplit : (K (F := F)).VecSplit' (P m) 0 := by
  intro d c
  show (bigSep Finset.univ fun i : Fin ((K (F := F)).nSub 0) => tileGo m d (wid c.val i.val)) ⊢ |={Set.univ}=> iprop(
      (bigSep Finset.univ fun i : Fin ((K (F := F)).nSub 0) => tileGo m d (wid c.val i.val))
      ∗ ((bigSep Finset.univ fun i : Fin ((K (F := F)).nSub 0) => tileTd m d (wid c.val i.val))
          -∗ bigSep Finset.univ fun i : Fin ((K (F := F)).nSub 0) => tileTd m d (wid c.val i.val)))
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Group and place against worker number -/

/-- Distinct (group, place) pairs are distinct workers: 2 i + c determines c (its parity) and i. -/
theorem wid_injective : Function.Injective (fun p : Fin 2 × Fin 16 => wid p.1.val p.2.val) := by
  rintro ⟨c, i⟩ ⟨c', i'⟩ h
  have hv : (wid c.val i.val).val = (wid c'.val i'.val).val := congrArg Fin.val h
  rw [wid_val c.isLt i.isLt, wid_val c'.isLt i'.isLt] at hv
  have hc := c.isLt
  have hc' := c'.isLt
  exact Prod.ext (Fin.ext (by show c.val = c'.val; omega)) (Fin.ext (by show i.val = i'.val; omega))

/-- Every worker w is a pair: group w mod 2, place w div 2. -/
theorem wid_surjective : Function.Surjective (fun p : Fin 2 × Fin 16 => wid p.1.val p.2.val) := by
  intro w
  have hw := w.isLt
  refine ⟨(⟨w.val % 2, Nat.mod_lt _ (by decide)⟩, ⟨w.val / 2, by omega⟩), Fin.ext ?_⟩
  show (wid (w.val % 2) (w.val / 2)).val = w.val
  rw [wid_val (Nat.mod_lt _ (by decide)) (by omega)]
  omega

/-- (group, place) ↦ worker, as a one-to-one correspondence. -/
def widEquiv : Fin 2 × Fin 16 ≃ Fin 32 := Equiv.ofBijective _ ⟨wid_injective, wid_surjective⟩

/-- Dealing by group, then by place in the group, is dealing one part to each of the thirty-two workers. -/
theorem bigSep_workers (Φ : Fin 32 → sProp 𝕄) :
    (bigSep (Finset.univ : Finset (Fin ((K (F := F)).nCore 0))) fun c =>
        bigSep (Finset.univ : Finset (Fin ((K (F := F)).nSub 0))) fun i => Φ (wid c.val i.val))
      = bigSep (Finset.univ : Finset (Fin 32)) Φ := by
  show (bigSep (Finset.univ : Finset (Fin 2)) fun c => bigSep (Finset.univ : Finset (Fin 16)) fun i => Φ (wid c.val i.val)) = _
  rw [← bigSep_univ_prod (fun p : Fin 2 × Fin 16 => Φ (wid p.1.val p.2.val)), bigSep_univ_equiv widEquiv Φ]
  rfl

/-! ## The result as its thirty-two row blocks -/

theorem blkSet_eq (w : Fin 32) : blkSet w = (blk w).set := by
  show ((View.whole (main_v0_scv : Ref sig .scVector)).slice (blk w)).set = _
  rw [View.set_slice]; exact Finset.map_refl

theorem blks_disjoint : ∀ i ∈ (Finset.univ : Finset (Fin 32)), ∀ j ∈ (Finset.univ : Finset (Fin 32)), i ≠ j → Disjoint (blkSet i) (blkSet j) :=
  fun i _ j _ h => by rw [blkSet_eq, blkSet_eq]; exact Rect.part_disjoint hdiv h

theorem blks_cover : (Finset.univ : Finset (Fin 32)).biUnion blkSet = Finset.univ :=
  (Finset.biUnion_congr rfl fun i _ => blkSet_eq i).trans (Rect.biUnion_part hdiv)

/-- The whole result held at `f` is its thirty-two blocks, each held at `f`. -/
theorem oPts_blks (d : Dev nD) (f : Buf (Elt F) (oLoc d)) :
    (oLoc d ↦{fullShare} f : sProp 𝕄) = bigSep Finset.univ fun w : Fin 32 => oLoc d ↦[blkSet w]{fullShare} f := by
  rw [← pointsTo_biUnion Finset.univ (ℓ := oLoc d) blkSet blks_disjoint, blks_cover]; try rfl

/-! ## What the two groups are handed together, and hand back -/

/-- To the two groups together: a read share of the labels and of the table per worker, and every block of the
    result as the launch found it. -/
theorem st0_eq (d : Dev nD) :
    (bigSep Finset.univ fun c : Fin ((K (F := F)).nCore 0) => (P m).st 0 d c)
      = iprop((bigSep Finset.univ fun w : Fin 32 => iLoc d ↦{tok w} m (iLoc d))
          ∗ (bigSep Finset.univ fun w : Fin 32 => xLoc d ↦{tok w} m (xLoc d))
          ∗ bigSep Finset.univ fun w : Fin 32 => oLoc d ↦[blkSet w]{fullShare} m (oLoc d)) := by
  show (bigSep Finset.univ fun c : Fin ((K (F := F)).nCore 0) =>
      bigSep Finset.univ fun i : Fin ((K (F := F)).nSub 0) => tileGo m d (wid c.val i.val)) = _
  rw [bigSep_workers (F := F) (fun w => tileGo m d w)]
  unfold tileGo
  rw [bigSep_sep', bigSep_sep']

/-- Back from them: the same shares, and every block holding the looked-up rows. -/
theorem dn0_eq (d : Dev nD) :
    (bigSep Finset.univ fun c : Fin ((K (F := F)).nCore 0) => (P m).dn 0 d c)
      = iprop((bigSep Finset.univ fun w : Fin 32 => iLoc d ↦{tok w} m (iLoc d))
          ∗ (bigSep Finset.univ fun w : Fin 32 => xLoc d ↦{tok w} m (xLoc d))
          ∗ bigSep Finset.univ fun w : Fin 32 => oLoc d ↦[blkSet w]{fullShare} G m d) := by
  show (bigSep Finset.univ fun c : Fin ((K (F := F)).nCore 0) =>
      bigSep Finset.univ fun i : Fin ((K (F := F)).nSub 0) => tileTd m d (wid c.val i.val)) = _
  rw [bigSep_workers (F := F) (fun w => tileTd m d w)]
  unfold tileTd
  rw [bigSep_sep', bigSep_sep']

/-! ## The main thread -/

/-- The main thread's arrays that outlive the call: the labels, the table and the result. -/
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the main thread ends holding: the labels and the table whole and unchanged, the result whole and equal to
    the lookup. -/
abbrev FIN (d : Dev nD) : sProp 𝕄 :=
  iprop((iLoc d ↦{fullShare} m (iLoc d)) ∗ (xLoc d ↦{fullShare} m (xLoc d)) ∗ oLoc d ↦{fullShare} G m d)

/-- The main thread on device `d`: cut the arrays, start the workers, wait, put the arrays back together. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  ihave Hi' := (Transfers.pointsTo_toks_split fullShare 32) $$ Hi
  icases Hi' with ⟨Hid, Hit⟩
  ihave Hx' := (Transfers.pointsTo_toks_split fullShare 32) $$ Hx
  icases Hx' with ⟨Hxd, Hxt⟩
  ihave Hob := (Entails.of_eq (oPts_blks d (m (oLoc d)))) $$ Ho
  iapply ((K (F := F)).wp_run (D (F := F)) 𝒱 (EH := EH) (P := P m) κ d 0) $$ [Hst Hit Hxt Hob Hid Hxd]
  isplitr; · iexact Hctx
  isplitl [Hst]; · iexact Hst
  isplitl [Hit Hxt Hob]
  · rw [st0_eq]
    isplitl [Hit]; · iexact Hit
    isplitl [Hxt]; · iexact Hxt
    iexact Hob
  iintro ⟨Hst, Hdn⟩
  ihave Hdn' := (Entails.of_eq (dn0_eq m d)) $$ Hdn
  icases Hdn' with ⟨Hit, Hxt, Hob⟩
  imodintro
  isplitl [Hst]; · iexact Hst
  isplitl [Hid Hit]
  · iapply (Transfers.pointsTo_toks_join fullShare 32)
    isplitl [Hid]; · iexact Hid
    iexact Hit
  isplitl [Hxd Hxt]
  · iapply (Transfers.pointsTo_toks_join fullShare 32)
    isplitl [Hxd]; · iexact Hxd
    iexact Hxt
  rw [oPts_blks]; iexact Hob

/-! ## Reading the final memory -/

def fq (d : Dev nD) (s' : Phys nD τ sig (Elt F)) : Prop :=
  s'.mem.mem (oLoc d) = G m d ∧ s'.mem.mem (iLoc d) = m (iLoc d) ∧ s'.mem.mem (xLoc d) = m (xLoc d)

/-- An array held whole at the end is what the final memory holds. -/
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the result is the lookup of the inputs as they were at the start, and the inputs are unchanged. -/
def QC : PUnit × MemSt nD τ sig (Elt F) → Prop := fun r => ∀ c : Dev nD,
  r.2.mem (oLoc c) = G m c ∧ r.2.mem (iLoc c) = m (iLoc c) ∧ r.2.mem (xLoc c) = m (xLoc c)

/-- If every worker's task, from its part as dealt, ends with its part as it must come back, then every execution of
    the whole program ends, with the result equal to the lookup and the inputs unchanged. -/
theorem run_of_tile [FloatOps F] [∀ e, Nonempty (Elt F e)]
    (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.BitsSide

end
-- ==== Proof.lean ====
/-
  The certificate's claims, assembled.

  Both programs compute an embedding lookup: row `e` of the result is the table's row named by label `e`. The kernel
  does it with thirty-two workers, each copying 512 labels in, gathering the rows they name, and copying the rows out to
  its own block of the result; the reference does it with one row gather of the whole table. Under the precondition every
  label lies in 0 … 99999, below the table's 100001 rows: every row the kernel's gather names exists, and on the
  reference's side the wrap of negative labels, the range mask and the clamp of the gather are all inactive. So both
  results are the one function `Cert.Spec.lookup` of the labels and the table, entry by entry; no arithmetic on the
  table's entries is done by either side, so the equality holds of any entries, finite or not.

  The three frames are the runs with their results forgotten; the idealized kernel is the kernel's own text read at the
  exact instance (no rewrite was applied), so nothing is owed for it.
-/
import proofs.«204377_g71743133712511_cont_9to1c4b_469_16_alg».proof.Defs
import proofs.«204377_g71743133712511_cont_9to1c4b_469_16_alg».proof.Proof.Gen.Kernel
import proofs.«204377_g71743133712511_cont_9to1c4b_469_16_alg».proof.Proof.Gen.KernelIdeal
import proofs.«204377_g71743133712511_cont_9to1c4b_469_16_alg».proof.Proof.Gen.ReferenceIdeal
import proofs.«204377_g71743133712511_cont_9to1c4b_469_16_alg».proof.Proof.Gen.Pre_input_domain
import proofs.«204377_g71743133712511_cont_9to1c4b_469_16_alg».proof.Proof.PreRange
import proofs.«204377_g71743133712511_cont_9to1c4b_469_16_alg».proof.Proof.RefRead
import proofs.«204377_g71743133712511_cont_9to1c4b_469_16_alg».proof.Proof.IdealTile
import proofs.«204377_g71743133712511_cont_9to1c4b_469_16_alg».proof.Proof.IdealLaunch
import proofs.«204377_g71743133712511_cont_9to1c4b_469_16_alg».proof.Proof.BitsTile
import proofs.«204377_g71743133712511_cont_9to1c4b_469_16_alg».proof.Proof.BitsLaunch
import Idealize.ShloMosaic.Adequacy
import Idealize.ShloMosaic.Init

noncomputable section

namespace Cert.Proof

open Idealize.ShloMosaic Idealize.SL.Sem

/-- Under the precondition every label of the kernel's launch memory is below 100000 (word-level instance). -/
theorem preOK_bits (m : (ℓ : Loc Cert.Kernel.nD Cert.Kernel.τ Cert.Kernel.sig) → Buf (Elt Bits) ℓ) (h : Cert.Pre_Kernel m) :
    BitsSide.PreOK m :=
  fun d j => PreRange.labels_lt _ _ (h d) j

/-- The same at the exact instance. -/
theorem preOK_ideal (m : (ℓ : Loc Cert.KernelIdeal.nD Cert.KernelIdeal.τ Cert.KernelIdeal.sig) → Buf (Elt Ideal) ℓ) (h : Cert.Pre_KernelIdeal m) :
    IdealSide.PreOK m :=
  fun d j => PreRange.labels_lt _ _ (h d) j

theorem frame_k : Cert.frame_Kernel := fun m g hpre =>
  (θ_run Cert.Kernel.defs _ _).mono (fun _ h c => (h c).2)
    (BitsSide.run_of_tile (F := Bits) m g (BitsSide.tileObl BitsSide.facts (preOK_bits m hpre)))

theorem frame_ki : Cert.frame_KernelIdeal := fun m g hpre =>
  (θ_run Cert.KernelIdeal.defs _ _).mono (fun _ h c => (h c).2)
    (IdealSide.run_of_tile (F := Ideal) m g (IdealSide.tileObl IdealSide.facts (preOK_ideal m hpre)))

theorem frame_ri : Cert.frame_ReferenceIdeal := fun m g _ =>
  (θ_run Cert.ReferenceIdeal.defs _ _).mono (fun _ h c => (h c).2) (RefSide.run_term (F := Ideal) m g)

theorem preserves : Cert.preserves_Kernel_KernelIdeal := trivial

/-- From memories that agree on the labels and the table, the kernel's workers leave the lookup in the result, and the
    reference's gather, with its guards inactive, computes the lookup: equal entry by entry. -/
theorem algebraic : Cert.algebraic_KernelIdeal_ReferenceIdeal := by
  intro m g m' g' hpre hagree
  refine ⟨fun c => IdealSide.G m c,
    (θ_run Cert.KernelIdeal.defs _ _).mono (fun _ h c => h c)
      (IdealSide.run_of_tile (F := Ideal) m g (IdealSide.tileObl IdealSide.facts (preOK_ideal m hpre))), ?_⟩
  have hl : ∀ (c : Dev Cert.ReferenceIdeal.nD) j,
      (m' ((c.tc : Thread Cert.ReferenceIdeal.nD Cert.ReferenceIdeal.τ).loc Cert.ReferenceIdeal.main_arg0) j).toNat < 100000 := by
    intro c j
    rw [(hagree c).1]
    exact preOK_ideal m hpre c j
  refine (θ_run Cert.ReferenceIdeal.defs _ _).mono (fun _ h c => ⟨(h c).1.trans ?_, (h c).2⟩) (RefSide.run m' g' hl)
  rw [(hagree c).1, (hagree c).2]
  rfl

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
